-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S64x1024 : Shape := ⟨2, ![64, 1024]⟩
abbrev S64 : Shape := ⟨1, ![64]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x1024 .f32) (main_arg1 : FVec F S64x1024 .f32) (main_arg2 : FVec F S64 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x1024 : Shape := ⟨2, ![32768, 1024]⟩
abbrev S64x1024 : Shape := ⟨2, ![64, 1024]⟩
abbrev S64 : Shape := ⟨1, ![64]⟩
abbrev S1x64 : Shape := ⟨2, ![1, 64]⟩
abbrev S64x32768 : Shape := ⟨2, ![64, 32768]⟩
abbrev S2048x1024 : Shape := ⟨2, ![2048, 1024]⟩
abbrev S64x2048 : Shape := ⟨2, ![64, 2048]⟩
abbrev S64x1 : Shape := ⟨2, ![64, 1]⟩
abbrev S32768x64 : Shape := ⟨2, ![32768, 64]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S64x1024, .f32⟩
  | .hbm, ⟨2, _⟩ => ⟨S64, .f32⟩
  | .hbm, ⟨3, _⟩ => ⟨S1x64, .f32⟩
  | .hbm, ⟨4, _⟩ => ⟨S64x32768, .f32⟩
  | .hbm, ⟨5, _⟩ => ⟨S64x32768, .f32⟩
  | .hbm, ⟨6, _⟩ => ⟨S32768x64, .f32⟩
  | .hbm, ⟨7, _⟩ => ⟨S32768x64, .f32⟩
  | .local _ .vmem, ⟨0, _⟩ => ⟨S2048x1024, .f32⟩
  | .local _ .vmem, ⟨1, _⟩ => ⟨S2048x1024, .f32⟩
  | .local _ .vmem, ⟨2, _⟩ => ⟨S64x1024, .f32⟩
  | .local _ .vmem, ⟨3, _⟩ => ⟨S1x64, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S64x1024_S64x1024_0_0 : ∀ a, (![0, 0] : Fin 2 → Nat) a + S64x1024.size a ≤ S64x1024.size a
  h_S64x1024 : 0 < S64x1024.numel
  inb_S2048x1024_S2048x1024_0_0 : ∀ a, (![0, 0] : Fin 2 → Nat) a + S2048x1024.size a ≤ S2048x1024.size a
  h_S2048x1024 : 0 < S2048x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x2048 : S64x1.Broadcasts S64x2048
  natLt_1_32 : 1 < 32
  inb_S64x2048_S64x2048_0_0 : ∀ a, (![0, 0] : Fin 2 → Nat) a + S64x2048.size a ≤ S64x2048.size a
  h_S64x2048 : 0 < S64x2048.numel
  transposes_S64x32768_S32768x64_1_0 : S64x32768.Transposes [1, 0] S32768x64
  dot_S64x1024_S2048x1024_S64x2048_1_1_0_0_n_n_wf : DotDims.WF S64x1024 S2048x1024 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x32768.size a
  hwx0_3 : ∀ i : grid0.Coords, EltTy.bits .f32 = 32 ∨ (Rect.block (s := S64x32768) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x32768.size a
  hwx0_4 : ∀ i : grid0.Coords, EltTy.bits .f32 = 32 ∨ (Rect.block (s := S64x32768) S64x2048.size (cc0_transform_4 i) (hinb0_4 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S64x1024 : Shape := ⟨2, ![64, 1024]⟩
abbrev S64 : Shape := ⟨1, ![64]⟩
abbrev S1024x64 : Shape := ⟨2, ![1024, 64]⟩
abbrev S32768x64 : Shape := ⟨2, ![32768, 64]⟩
abbrev S1x64 : Shape := ⟨2, ![1, 64]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S64x1024, .f32⟩
  | .hbm, ⟨2, _⟩ => ⟨S64, .f32⟩
  | .hbm, ⟨3, _⟩ => ⟨S1024x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768x64, .f32⟩
  | .hbm, ⟨18, _⟩ => ⟨S32768x64, .i1⟩
  | .hbm, ⟨19, _⟩ => ⟨S32768x64, .f32⟩
  | .hbm, ⟨20, _⟩ => ⟨S32768x64, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S64x1024_S1024x64_1_0 : S64x1024.Transposes [1, 0] S1024x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  dot_S32768x1024_S1024x64_S32768x64_1_0_0_1_n_n_wf : DotDims.WF S32768x1024 S1024x64 S32768x64 [1] [0] [0] [1] [] []

variable [Facts₀]

def dot_S32768x1024_S1024x64_S32768x64_1_0_0_1_n_n : DotDims S32768x1024 S1024x64 S32768x64 where
  lhsContracting := [1]
  rhsContracting := [0]
  lhsNonContracting := [0]
  rhsNonContracting := [1]
  lhsBatch := []
  rhsBatch := []
  wf := dot_S32768x1024_S1024x64_S32768x64_1_0_0_1_n_n_wf

class Facts : Prop extends Facts₀ where

variable [Facts]
-- ==== Proof.GateSpec.lean ====
/-
  The gate, as one function of its three arrays.

  For a token `t` (a row of `x`, 1024 features) and an expert `e` (a row of `W`, with bias `b e`):
    logit t e = ∑ₖ W(e, k) · x(t, k) + b e,
    prob  t e = 1 / (1 + exp (−logit t e))                       (the logistic function on the extended reals),
    above p   = 1 if p > ½, else 0,
  and the two results, both of shape [32768, 64], hold at (t, e)
    gated = prob t e · above (prob t e),      mask = above (prob t e).
  The threshold ½ is kept as the float word both programs print; it is never evaluated.
-/
import Idealize.ShloMosaic.PureOps.Ideal
import Idealize.ShloMosaic.Lib.ValueIdx

noncomputable section

namespace Cert.Gate

open Idealize.ShloMosaic Idealize.ShloMosaic.ValueIdx

/-- The logit of token `t` for expert `e`: the expert's weight row against the token's features, plus the expert's bias. -/
def logit (x : FVec Ideal ⟨2, ![32768, 1024]⟩ .f32) (W : FVec Ideal ⟨2, ![64, 1024]⟩ .f32) (b : FVec Ideal ⟨1, ![64]⟩ .f32)
    (t : Fin 32768) (e : Fin 64) : EReal :=
  (∑ k : Fin 1024, W (ix2 e k) * x (ix2 t k)) + b (ix1 e)

/-- The gate probability: the logistic function of the logit. -/
def prob (x : FVec Ideal ⟨2, ![32768, 1024]⟩ .f32) (W : FVec Ideal ⟨2, ![64, 1024]⟩ .f32) (b : FVec Ideal ⟨1, ![64]⟩ .f32)
    (t : Fin 32768) (e : Fin 64) : EReal :=
  Ideal.logistic (logit x W b t e)

/-- The indicator of `p > ½` as a number: the comparison's bit read as 0 or 1. -/
def above (p : EReal) : EReal := (((Ideal.cmp .ogt p (Ideal.ofBits .f32 0x3F000000#32)).toNat : ℝ) : EReal)

/-- The first result: the probability where it passes the threshold, zero elsewhere. -/
def gated (x : FVec Ideal ⟨2, ![32768, 1024]⟩ .f32) (W : FVec Ideal ⟨2, ![64, 1024]⟩ .f32) (b : FVec Ideal ⟨1, ![64]⟩ .f32) :
    FVec Ideal ⟨2, ![32768, 64]⟩ .f32 :=
  fun i => prob x W b (i 0) (i 1) * above (prob x W b (i 0) (i 1))

/-- The second result: the threshold mask. -/
def mask (x : FVec Ideal ⟨2, ![32768, 1024]⟩ .f32) (W : FVec Ideal ⟨2, ![64, 1024]⟩ .f32) (b : FVec Ideal ⟨1, ![64]⟩ .f32) :
    FVec Ideal ⟨2, ![32768, 64]⟩ .f32 :=
  fun i => above (prob x W b (i 0) (i 1))

/-- A one-bit word widened to 32 bits and read as a signed integer is the bit itself: 0 or 1. -/
theorem widen_bit (c : BitVec 1) : (((c.setWidth 32).toInt : ℝ) : EReal) = ((c.toNat : ℝ) : EReal) := by
  rcases BitVec.eq_zero_or_eq_one c with h | h <;> subst h <;> norm_num

end Cert.Gate

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.GateBody.lean ====
/-
  The kernel body's three values at an entry `(e, q)` of its `[64, 2048]` tile — expert `e`, the tile's token `q`.

  The body multiplies the weights `W : [64, 1024]` by the transposed token tile `X : [2048, 1024]` into a zero
  accumulator, so the product's entry is `∑ₖ W(e, k) · X(q, k)`; the bias row `[1, 64]` is turned into a column and
  repeated along the tokens, so it adds `B(0, e)`; then the logistic function, the threshold bit widened to a word and
  converted, and the product of the two.
-/
import proofs.«119890_g22239340659018_cont_8to1_1570_23_alg».proof.Proof.Gen.KernelIdeal.Skeleton
import proofs.«119890_g22239340659018_cont_8to1_1570_23_alg».proof.Proof.GateSpec
import proofs.«119890_g22239340659018_cont_8to1_1570_23_alg».proof.Proof.LibBroadcast
import proofs.«119890_g22239340659018_cont_8to1_1570_23_alg».proof.Proof.LibRowsProduct
import Idealize.ShloMosaic.Lib.Pipeline.Value

noncomputable section

namespace Cert.KernelIdeal.GateBody

open Idealize.ShloMosaic Idealize.ShloMosaic.ValueIdx Cert.KernelIdeal Cert.KernelIdeal.Gen

/-- The bias row as a column, repeated along the tile's tokens: at `(e, q)` the row's entry `e`. -/
theorem bias_apply (B : FVec Ideal S1x64 .f32) (h1 : S1x64.ShapeCasts S1x64) (h2 : S1x64.Transposes [1, 0] S64x1)
    (h3 : S64x1.Broadcasts S64x2048) (e : Fin 64) (q : Fin 2048) :
    broadcastTo S64x2048 (transpose S64x1 [1, 0] (shapeCast S1x64 B h1) h2) h3 (ix2 e q) = B (ix2 (0 : Fin 1) e) := by
  rw [Cert.Layout.broadcastTo_a1_ab_apply, shapeCast_self]
  exact transpose_apply [1, 0] B h2 (ix2 e (0 : Fin 1)) (ix2 (0 : Fin 1) e) (fun a => match a with
    | ⟨0, _⟩ => rfl
    | ⟨1, _⟩ => rfl)

/-- The tile's logit at `(e, q)`. -/
def tileLogit (W : FVec Ideal S64x1024 .f32) (X : FVec Ideal S2048x1024 .f32) (B : FVec Ideal S1x64 .f32)
    (e : Fin 64) (q : Fin 2048) : EReal :=
  (∑ k : Fin 1024, W (ix2 e k) * X (ix2 q k)) + B (ix2 (0 : Fin 1) e)

/-- The body's probability value at `(e, q)`: the logistic function of the tile's logit. -/
theorem prob_apply (W : FVec Ideal S64x1024 .f32) (X : FVec Ideal S2048x1024 .f32) (B : FVec Ideal S1x64 .f32)
    (e : Fin 64) (q : Fin 2048) :
    k0_pay1 (F := Ideal) W X B (ix2 e q) = Ideal.logistic (tileLogit W X B e q) := by
  unfold k0_pay1 tileLogit
  show FloatOps.logistic (FloatOps.addf
      (FloatOps.matmul (⟨[1], [1], [0], [0], [], [], dot_S64x1024_S2048x1024_S64x2048_1_1_0_0_n_n_wf⟩ : DotDims S64x1024 S2048x1024 S64x2048)
        none W X (constant S64x2048 .f32 0x00000000#32) (ix2 e q))
      (broadcastTo S64x2048 (transpose S64x1 [1, 0] (shapeCast S1x64 B shapeCasts_S1x64_S1x64) transposes_S1x64_p1_0_S64x1)
        broadcasts_S64x1_S64x2048 (ix2 e q))) = _
  rw [Cert.RowsProduct.matmul_nt_apply, bias_apply]
  rfl

/-- The body's mask value at `(e, q)`: the indicator of the probability passing ½. -/
theorem mask_apply (W : FVec Ideal S64x1024 .f32) (X : FVec Ideal S2048x1024 .f32) (B : FVec Ideal S1x64 .f32)
    (e : Fin 64) (q : Fin 2048) :
    k0_pay2 (F := Ideal) W X B (ix2 e q) = Cert.Gate.above (Ideal.logistic (tileLogit W X B e q)) := by
  rw [← prob_apply]
  unfold k0_pay2
  exact Cert.Gate.widen_bit _

/-- The body's gated value at `(e, q)`. -/
theorem gated_apply (W : FVec Ideal S64x1024 .f32) (X : FVec Ideal S2048x1024 .f32) (B : FVec Ideal S1x64 .f32)
    (e : Fin 64) (q : Fin 2048) :
    k0_pay3 (F := Ideal) W X B (ix2 e q)
      = Ideal.logistic (tileLogit W X B e q) * Cert.Gate.above (Ideal.logistic (tileLogit W X B e q)) := by
  rw [← mask_apply, ← prob_apply]
  rfl

end Cert.KernelIdeal.GateBody

end
-- ==== Proof.GateBlocks.lean ====
/-
  From the tiles to the two whole `[64, 32768]` arrays the kernel writes.

  Grid point `t` works on tokens `2048·t … 2048·t + 2047`: it reads that block of rows of `x`, all of `W` and the bias
  row, and writes columns `2048·t …` of both output arrays.  So entry `(e, n)` of the first array holds the gated
  probability of token `n` for expert `e`, and of the second the mask — the transposes of the two results.  The sixteen
  column blocks tile the arrays, so after the last point each array is that function everywhere.
-/
import proofs.«119890_g22239340659018_cont_8to1_1570_23_alg».proof.Proof.Gen.KernelIdeal.Frame
import proofs.«119890_g22239340659018_cont_8to1_1570_23_alg».proof.Proof.GateBody
import Idealize.ShloMosaic.Lib.Pipeline.Value

set_option maxRecDepth 16384

noncomputable section

namespace Cert.KernelIdeal.GateBlocks

open Idealize.ShloMosaic Idealize.ShloMosaic.TcCoe Idealize.ShloMosaic.ValueIdx Idealize.SL.Sem
open Cert.KernelIdeal Cert.KernelIdeal.Gen

/-- The logit of token `j 1` for expert `j 0`, with the bias held as a one-row matrix. -/
def logitT (x : FVec Ideal S32768x1024 .f32) (W : FVec Ideal S64x1024 .f32) (B : FVec Ideal S1x64 .f32)
    (j : S64x32768.Idx) : EReal :=
  (∑ k : Fin 1024, W (ix2 (j 0) k) * x (ix2 (j 1) k)) + B (ix2 (0 : Fin 1) (j 0))

/-- The transposed first result: expert by token. -/
def gatedT (x : FVec Ideal S32768x1024 .f32) (W : FVec Ideal S64x1024 .f32) (B : FVec Ideal S1x64 .f32) :
    FVec Ideal S64x32768 .f32 :=
  fun j => Ideal.logistic (logitT x W B j) * Cert.Gate.above (Ideal.logistic (logitT x W B j))

/-- The transposed second result. -/
def maskT (x : FVec Ideal S32768x1024 .f32) (W : FVec Ideal S64x1024 .f32) (B : FVec Ideal S1x64 .f32) :
    FVec Ideal S64x32768 .f32 :=
  fun j => Cert.Gate.above (Ideal.logistic (logitT x W B j))

/-- A tile's logit is the whole arrays' logit at the entry `J` the tile's `(e, q)` sits at, once each block read is
    the array read at the matching place. -/
theorem tileLogit_eq (x : FVec Ideal S32768x1024 .f32) (W : FVec Ideal S64x1024 .f32) (B : FVec Ideal S1x64 .f32)
    (Wb : FVec Ideal S64x1024 .f32) (Xb : FVec Ideal S2048x1024 .f32) (Bb : FVec Ideal S1x64 .f32)
    (J : S64x32768.Idx) (e : Fin 64) (q : Fin 2048)
    (hW : ∀ k : Fin 1024, Wb (ix2 e k) = W (ix2 (J 0) k))
    (hX : ∀ k : Fin 1024, Xb (ix2 q k) = x (ix2 (J 1) k))
    (hB : Bb (ix2 (0 : Fin 1) e) = B (ix2 (0 : Fin 1) (J 0))) :
    GateBody.tileLogit Wb Xb Bb e q = logitT x W B J := by
  unfold GateBody.tileLogit logitT
  rw [hB]
  exact congrArg (· + B (ix2 (0 : Fin 1) (J 0))) (Finset.sum_congr rfl fun k _ => by rw [hW k, hX k])

variable (m : (ℓ : Loc nD τ sig) → Buf (Elt Ideal) ℓ)

theorem zero_offsets : (![0, 0] : Fin 2 → Nat) = fun _ => 0 := funext fun a => by fin_cases a <;> rfl

/-- The block index maps over the sixteen points: the token block of `x` moves with the outputs' column block; the
    weights and the bias are one block; the outputs' row block is fixed. -/
theorem index_facts : ∀ t : Fin cfg0.N,
    win0_0.index t (0 : Fin 2) = win0_3.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) ≤ 15
    ∧ win0_4.index t (0 : Fin 2) = 0 ∧ win0_4.index t (1 : Fin 2) = win0_3.index t (1 : Fin 2) :=
  (by decide +kernel : ∀ t : Fin grid0.N, _)

/-- Every column block is some point's. -/
theorem index_onto : ∀ q : Fin 16, ∃ t : Fin cfg0.N, win0_3.index t = ![0, q.val] ∧ win0_4.index t = ![0, q.val] :=
  (by decide +kernel : ∀ q : Fin 16, ∃ t : Fin grid0.N, win0_3.index t = ![0, q.val] ∧ win0_4.index t = ![0, q.val])

/-- The three block reads of a point, at the places an output entry `J` in column block `n` needs them. -/
theorem block_reads (c : Dev nD) (t : Fin cfg0.N) (J : S64x32768.Idx) (e : Fin 64) (q : Fin 2048)
    (hJ0 : (J 0).val = e.val) (hJ1 : (J 1).val = win0_3.index t (1 : Fin 2) * 2048 + q.val) :
    (∀ k : Fin 1024, iblk m c 1 t (ix2 e k) = V m c main_arg1 (ix2 (J 0) k))
    ∧ (∀ k : Fin 1024, iblk m c 0 t (ix2 q k) = V m c main_arg0 (ix2 (J 1) k))
    ∧ iblk m c 2 t (ix2 (0 : Fin 1) e) = V m c main_v0 (ix2 (0 : Fin 1) (J 0)) := by
  obtain ⟨f0, f1, f2, f3, f4, f5, f6, f7, f8, f9⟩ := index_facts t
  refine ⟨fun k => ?_, fun k => ?_, ?_⟩
  · have h : ((cfg0.win 1).blk t).view.emb (ix2 e k) = ix2 (J 0) k := by
      funext a; apply Fin.ext
      match a with
      | ⟨0, _⟩ => show win0_1.index t (0 : Fin 2) * 64 + 1 * e.val = (J 0).val; omega
      | ⟨1, _⟩ => show win0_1.index t (1 : Fin 2) * 1024 + 1 * k.val = k.val; omega
    show V m c main_arg1 (((cfg0.win 1).blk t).view.emb (ix2 e k)) = V m c main_arg1 (ix2 (J 0) k)
    exact congrArg (V m c main_arg1) h
  · have h : ((cfg0.win 0).blk t).view.emb (ix2 q k) = ix2 (J 1) k := by
      funext a; apply Fin.ext
      match a with
      | ⟨0, _⟩ => show win0_0.index t (0 : Fin 2) * 2048 + 1 * q.val = (J 1).val; omega
      | ⟨1, _⟩ => show win0_0.index t (1 : Fin 2) * 1024 + 1 * k.val = k.val; omega
    show V m c main_arg0 (((cfg0.win 0).blk t).view.emb (ix2 q k)) = V m c main_arg0 (ix2 (J 1) k)
    exact congrArg (V m c main_arg0) h
  · have h : ((cfg0.win 2).blk t).view.emb (ix2 (0 : Fin 1) e) = ix2 (0 : Fin 1) (J 0) := by
      funext a; apply Fin.ext
      match a with
      | ⟨0, _⟩ => show win0_2.index t (0 : Fin 2) * 1 + 1 * 0 = 0; omega
      | ⟨1, _⟩ => show win0_2.index t (1 : Fin 2) * 64 + 1 * e.val = (J 0).val; omega
    show V m c main_v0 (((cfg0.win 2).blk t).view.emb (ix2 (0 : Fin 1) e)) = V m c main_v0 (ix2 (0 : Fin 1) (J 0))
    exact congrArg (V m c main_v0) h

/-- What point `t` writes back to the first output is its block of the transposed gated probability. -/
theorem flushed_gated (c : Dev nD) (t : Fin cfg0.N) :
    (dats m 0 c).flushed 3 t
      = ((cfg0.win 3).blk t).view.read (Elt Ideal) (gatedT (V m c main_arg0) (V m c main_arg1) (V m c main_v0)) := by
  show (cfg0.win 3).cut (grid0.coords t) ((dats m 0 c).after 3 t) = _
  rw [after0_3]
  unfold out0_3
  rw [View.canon_unit_zero zero_offsets]
  simp only [View.ld_unit_zero (S := S64x1024) zero_offsets, View.ld_unit_zero (S := S2048x1024) zero_offsets,
    View.ld_unit_zero (S := S1x64) zero_offsets]
  funext j
  obtain ⟨e, q, rfl⟩ : ∃ (e : Fin 64) (q : Fin 2048), j = ix2 e q := ⟨j 0, j 1, eq_ix2 j⟩
  obtain ⟨f0, f1, f2, f3, f4, f5, f6, f7, f8, f9⟩ := index_facts t
  have hJ0 : ((((cfg0.win 3).blk t).view.emb (ix2 e q) : S64x32768.Idx) 0).val = e.val := by
    show win0_3.index t (0 : Fin 2) * 64 + 1 * e.val = e.val; omega
  have hJ1 : ((((cfg0.win 3).blk t).view.emb (ix2 e q) : S64x32768.Idx) 1).val = win0_3.index t (1 : Fin 2) * 2048 + q.val := by
    show win0_3.index t (1 : Fin 2) * 2048 + 1 * q.val = _; omega
  obtain ⟨hW, hX, hB⟩ := block_reads m c t (((cfg0.win 3).blk t).view.emb (ix2 e q)) e q hJ0 hJ1
  have hL := tileLogit_eq (V m c main_arg0) (V m c main_arg1) (V m c main_v0) (iblk m c 1 t) (iblk m c 0 t) (iblk m c 2 t)
    (((cfg0.win 3).blk t).view.emb (ix2 e q)) e q hW hX hB
  refine (GateBody.gated_apply (iblk m c 1 t) (iblk m c 0 t) (iblk m c 2 t) e q).trans ?_
  rw [hL]
  rfl

/-- What point `t` writes back to the second output is its block of the transposed mask. -/
theorem flushed_mask (c : Dev nD) (t : Fin cfg0.N) :
    (dats m 0 c).flushed 4 t
      = ((cfg0.win 4).blk t).view.read (Elt Ideal) (maskT (V m c main_arg0) (V m c main_arg1) (V m c main_v0)) := by
  show (cfg0.win 4).cut (grid0.coords t) ((dats m 0 c).after 4 t) = _
  rw [after0_4]
  unfold out0_4
  rw [View.canon_unit_zero zero_offsets]
  simp only [View.ld_unit_zero (S := S64x1024) zero_offsets, View.ld_unit_zero (S := S2048x1024) zero_offsets,
    View.ld_unit_zero (S := S1x64) zero_offsets]
  funext j
  obtain ⟨e, q, rfl⟩ : ∃ (e : Fin 64) (q : Fin 2048), j = ix2 e q := ⟨j 0, j 1, eq_ix2 j⟩
  obtain ⟨f0, f1, f2, f3, f4, f5, f6, f7, f8, f9⟩ := index_facts t
  have hJ0 : ((((cfg0.win 4).blk t).view.emb (ix2 e q) : S64x32768.Idx) 0).val = e.val := by
    show win0_4.index t (0 : Fin 2) * 64 + 1 * e.val = e.val; omega
  have hJ1 : ((((cfg0.win 4).blk t).view.emb (ix2 e q) : S64x32768.Idx) 1).val = win0_3.index t (1 : Fin 2) * 2048 + q.val := by
    show win0_4.index t (1 : Fin 2) * 2048 + 1 * q.val = _; omega
  obtain ⟨hW, hX, hB⟩ := block_reads m c t (((cfg0.win 4).blk t).view.emb (ix2 e q)) e q hJ0 hJ1
  have hL := tileLogit_eq (V m c main_arg0) (V m c main_arg1) (V m c main_v0) (iblk m c 1 t) (iblk m c 0 t) (iblk m c 2 t)
    (((cfg0.win 4).blk t).view.emb (ix2 e q)) e q hW hX hB
  refine (GateBody.mask_apply (iblk m c 1 t) (iblk m c 0 t) (iblk m c 2 t) e q).trans ?_
  rw [hL]
  rfl

/-- An entry is in point `t`'s block of the first output iff each coordinate is in the block's range. -/
theorem mem_block_gated (t : Fin cfg0.N) (i : S64x32768.Idx) :
    i ∈ ((cfg0.win 3).blk t).view.set ↔ ∀ a : Fin 2, win0_3.index t a * S64x2048.size a ≤ (i a).val
      ∧ (i a).val < win0_3.index t a * S64x2048.size a + S64x2048.size a := by
  show i ∈ ((View.whole main_v1_0).slice (win0_3.rect t)).set ↔ _
  rw [View.set_slice_whole, Rect.mem_set_unit]
  exact Iff.rfl

/-- The same for the second output. -/
theorem mem_block_mask (t : Fin cfg0.N) (i : S64x32768.Idx) :
    i ∈ ((cfg0.win 4).blk t).view.set ↔ ∀ a : Fin 2, win0_4.index t a * S64x2048.size a ≤ (i a).val
      ∧ (i a).val < win0_4.index t a * S64x2048.size a + S64x2048.size a := by
  show i ∈ ((View.whole main_v1_1).slice (win0_4.rect t)).set ↔ _
  rw [View.set_slice_whole, Rect.mem_set_unit]
  exact Iff.rfl

/-- Every entry of the first output is written: column `n` by the point of column block `n / 2048`. -/
theorem cover_gated (i : S64x32768.Idx) :
    ∃ t : Fin cfg0.N, (cfg0.win 3).flush t = true ∧ i ∈ ((cfg0.win 3).blk t).view.set := by
  have hi0 : (i 0).val < 64 := (i 0).isLt
  have hi1 : (i 1).val < 32768 := (i 1).isLt
  obtain ⟨t, ht, -⟩ := index_onto ⟨(i 1).val / 2048, by omega⟩
  have q0 : win0_3.index t (0 : Fin 2) = 0 := congrFun ht 0
  have q1 : win0_3.index t (1 : Fin 2) = (i 1).val / 2048 := congrFun ht 1
  refine ⟨t, flush0_3 t, ?_⟩
  rw [mem_block_gated]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 2048 ≤ (i 1).val ∧ (i 1).val < win0_3.index t (1 : Fin 2) * 2048 + 2048; omega

/-- Every entry of the second output is written. -/
theorem cover_mask (i : S64x32768.Idx) :
    ∃ t : Fin cfg0.N, (cfg0.win 4).flush t = true ∧ i ∈ ((cfg0.win 4).blk t).view.set := by
  have hi0 : (i 0).val < 64 := (i 0).isLt
  have hi1 : (i 1).val < 32768 := (i 1).isLt
  obtain ⟨t, -, ht⟩ := index_onto ⟨(i 1).val / 2048, by omega⟩
  have q0 : win0_4.index t (0 : Fin 2) = 0 := congrFun ht 0
  have q1 : win0_4.index t (1 : Fin 2) = (i 1).val / 2048 := congrFun ht 1
  refine ⟨t, flush0_4 t, ?_⟩
  rw [mem_block_mask]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 2048 ≤ (i 1).val ∧ (i 1).val < win0_4.index t (1 : Fin 2) * 2048 + 2048; omega

/-- The first output array after the last point. -/
theorem final_gated (c : Dev nD) :
    (dats m 0 c).arrAt 3 cfg0.N = gatedT (V m c main_arg0) (V m c main_arg1) (V m c main_v0) :=
  (dats m 0 c).arrAt_eq_of_cover 3 _ (fun t _ => flushed_gated m c t) cover_gated

/-- The second output array after the last point. -/
theorem final_mask (c : Dev nD) :
    (dats m 0 c).arrAt 4 cfg0.N = maskT (V m c main_arg0) (V m c main_arg1) (V m c main_v0) :=
  (dats m 0 c).arrAt_eq_of_cover 4 _ (fun t _ => flushed_mask m c t) cover_mask

end Cert.KernelIdeal.GateBlocks

end
-- ==== Proof.GateRun.lean ====
/-
  The kernel program's run, read at its two results.

  Before the region the bias vector is re-laid as a one-row matrix; after it each of the two `[64, 32768]` arrays is
  transposed into a `[32768, 64]` result.  Transposing the expert-by-token arrays back gives the gate function of the
  three argument arrays: entry `(t, e)` of a result is entry `(e, t)` of the array, and the one-row bias at `(0, e)`
  is the vector's entry `e`.
-/
import proofs.«119890_g22239340659018_cont_8to1_1570_23_alg».proof.Proof.GateBlocks
import Idealize.ShloMosaic.Lib.StableHlo.Run

set_option maxRecDepth 16384

noncomputable section

namespace Cert.KernelIdeal.GateRun

open Idealize.ShloMosaic Idealize.ShloMosaic.TcCoe Idealize.ShloMosaic.ValueIdx Idealize.SL.Sem Idealize.ShloMosaic.StableHlo
open Cert.KernelIdeal Cert.KernelIdeal.Gen

/-- With the bias held as the vector's one-row re-layout, the expert-by-token logit at `(e, t)` is the logit of token
    `t` for expert `e`. -/
theorem logitT_apply (x : FVec Ideal S32768x1024 .f32) (W : FVec Ideal S64x1024 .f32) (b : FVec Ideal S64 .f32)
    (h1 : S64.ShapeCasts S1x64) (t : Fin 32768) (e : Fin 64) :
    GateBlocks.logitT x W (shapeCast S1x64 b h1) (ix2 e t) = Cert.Gate.logit x W b t e := by
  show (∑ k : Fin 1024, W (ix2 e k) * x (ix2 t k)) + shapeCast S1x64 b h1 (ix2 (0 : Fin 1) e) = _
  rw [Cert.Layout.shapeCast_row_apply]
  rfl

/-- The expert-by-token gated probability, transposed, is the first result. -/
theorem transpose_gatedT (x : FVec Ideal S32768x1024 .f32) (W : FVec Ideal S64x1024 .f32) (b : FVec Ideal S64 .f32)
    (h1 : S64.ShapeCasts S1x64) (h2 : S64x32768.Transposes [1, 0] S32768x64) :
    transpose S32768x64 [1, 0] (GateBlocks.gatedT x W (shapeCast S1x64 b h1)) h2 = Cert.Gate.gated x W b := by
  funext i
  obtain ⟨t, e, rfl⟩ : ∃ (t : Fin 32768) (e : Fin 64), i = ix2 t e := ⟨i 0, i 1, eq_ix2 i⟩
  rw [transpose_apply [1, 0] _ h2 (ix2 t e) (ix2 e t) (fun a => match a with | ⟨0, _⟩ => rfl | ⟨1, _⟩ => rfl)]
  show Ideal.logistic (GateBlocks.logitT x W (shapeCast S1x64 b h1) (ix2 e t))
      * Cert.Gate.above (Ideal.logistic (GateBlocks.logitT x W (shapeCast S1x64 b h1) (ix2 e t))) = _
  rw [logitT_apply]
  rfl

/-- The expert-by-token mask, transposed, is the second result. -/
theorem transpose_maskT (x : FVec Ideal S32768x1024 .f32) (W : FVec Ideal S64x1024 .f32) (b : FVec Ideal S64 .f32)
    (h1 : S64.ShapeCasts S1x64) (h2 : S64x32768.Transposes [1, 0] S32768x64) :
    transpose S32768x64 [1, 0] (GateBlocks.maskT x W (shapeCast S1x64 b h1)) h2 = Cert.Gate.mask x W b := by
  funext i
  obtain ⟨t, e, rfl⟩ : ∃ (t : Fin 32768) (e : Fin 64), i = ix2 t e := ⟨i 0, i 1, eq_ix2 i⟩
  rw [transpose_apply [1, 0] _ h2 (ix2 t e) (ix2 e t) (fun a => match a with | ⟨0, _⟩ => rfl | ⟨1, _⟩ => rfl)]
  show Cert.Gate.above (Ideal.logistic (GateBlocks.logitT x W (shapeCast S1x64 b h1) (ix2 e t))) = _
  rw [logitT_apply]
  rfl

variable (m : (ℓ : Loc nD τ sig) → Buf (Elt Ideal) ℓ) (ρ : Dev nD → PrngReg)

/-- The bias as the region finds it: the vector re-laid as one row. -/
theorem bias_row (c : Dev nD) :
    V m c main_v0 = shapeCast S1x64 (m ((c.tc : Thread nD τ).loc main_arg2)) shapeCasts_S64_S1x64 := by
  show StableHlo.after hostOps0 (fun b => m (c, b)) (Proc.devRef .tc main_v0) = _
  after_results
  rfl

/-- The first result after the lines that follow the region. -/
theorem tail_gated (c : Dev nD) :
    Pipeline.afterTail₀ cfgs (dats m) 0 (V0 m) [hostOps1] c main_v2
      = Cert.Gate.gated (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v2) = _
  after_results
  refine (congrArg (fun A => transpose S32768x64 [1, 0] A transposes_S64x32768_S32768x64_1_0)
    ((Pipeline.withArrays_arr spec0 launch0.win.arr_inj c _ _ 3).trans (GateBlocks.final_gated m c))).trans ?_
  rw [V_main_arg0 m c, V_main_arg1 m c, bias_row m c]
  exact transpose_gatedT _ _ _ _ _

/-- The second result after the lines that follow the region. -/
theorem tail_mask (c : Dev nD) :
    Pipeline.afterTail₀ cfgs (dats m) 0 (V0 m) [hostOps1] c main_v3
      = Cert.Gate.mask (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v3) = _
  after_results
  refine (congrArg (fun A => transpose S32768x64 [1, 0] A transposes_S64x32768_S32768x64_1_0)
    ((Pipeline.withArrays_arr spec0 launch0.win.arr_inj c _ _ 4).trans (GateBlocks.final_mask m c))).trans ?_
  rw [V_main_arg0 m c, V_main_arg1 m c, bias_row m c]
  exact transpose_maskT _ _ _ _ _

/-- Every weakly fair execution of the kernel program terminates with its two results at the gate function of the
    argument arrays, and the arguments unchanged. -/
theorem run : θ_run defs (onTc (τ := τ) (main (F := Ideal))) ⟨m, fun _ => 0, ρ⟩ fun r => ∀ c : Dev nD,
      r.2.mem ((c.tc : Thread nD τ).loc main_v2)
        = Cert.Gate.gated (m ((c.tc : Thread nD τ).loc main_arg0)) (m ((c.tc : Thread nD τ).loc main_arg1))
            (m ((c.tc : Thread nD τ).loc main_arg2))
      ∧ r.2.mem ((c.tc : Thread nD τ).loc main_v3)
        = Cert.Gate.mask (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v2 (Pipeline.mem_restRefs_of main_v2 (by decide) (by decide))).trans (tail_gated m c),
      ((h c).2 main_v3 (Pipeline.mem_restRefs_of main_v3 (by decide) (by decide))).trans (tail_mask m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.GateRun

end
-- ==== Proof.GateReference.lean ====
/-
  The reference computes the gate function.

  Its matrix product contracts the token's features against the transposed weights, `∑ₖ x(t, k) · Wᵀ(k, e)`: the logit's
  sum with each product's factors exchanged.  Its probability is spelt `1 / (1 + exp (−z))` in the host's operations,
  which on the extended reals is the logistic function by definition (the float word of 1.0 is the number one).  Its mask
  converts the comparison's bit directly.
-/
import proofs.«119890_g22239340659018_cont_8to1_1570_23_alg».proof.Proof.Gen.ReferenceIdeal.Read
import proofs.«119890_g22239340659018_cont_8to1_1570_23_alg».proof.Proof.GateSpec
import Idealize.ShloMosaic.Lib.IdealHost

noncomputable section

namespace Cert.ReferenceIdeal.GateRef

open Idealize.ShloMosaic Idealize.ShloMosaic.ValueIdx Cert.ReferenceIdeal Cert.ReferenceIdeal.Read

/-- Where the product reads `x`: row `t`, column `k`. -/
theorem lhs_index (t : Fin 32768) (e : Fin 64) (k : Fin 1024) : lidx_main_v1 (ix2 t e) k = ix2 t k :=
  funext fun a => by match a with | ⟨0, _⟩ => rfl | ⟨1, _⟩ => rfl

/-- Where it reads `W`, through the transpose: row `e`, column `k`. -/
theorem rhs_index (t : Fin 32768) (e : Fin 64) (k : Fin 1024) : idx_main_v0 (ridx_main_v1 (ix2 t e) k) = ix2 e k :=
  funext fun a => by match a with | ⟨0, _⟩ => rfl | ⟨1, _⟩ => rfl

/-- Where the twice-broadcast bias is read: entry `e`. -/
theorem bias_index (t : Fin 32768) (e : Fin 64) : idx_main_v2 (idx_main_v3 (ix2 t e)) = ix1 e :=
  funext fun a => by match a with | ⟨0, _⟩ => rfl

/-- The reference's probability stage at `(t, e)` is the gate probability. -/
theorem prob_apply (x : FVec Ideal S32768x1024 .f32) (W : FVec Ideal S64x1024 .f32) (b : FVec Ideal S64 .f32)
    (t : Fin 32768) (e : Fin 64) :
    val_main_v10 (F := Ideal) x W b (ix2 t e) = Cert.Gate.prob x W b t e := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply]
  simp only [val_main_v0_apply, lhs_index, rhs_index, bias_index, Ideal.ofBits_def, Ideal.ofBits_one_f32]
  have hs : (∑ k : Fin 1024, x (ix2 t k) * W (ix2 e k)) = ∑ k : Fin 1024, W (ix2 e k) * x (ix2 t k) :=
    Finset.sum_congr rfl fun k _ => mul_comm _ _
  rw [hs]
  rfl

/-- The reference's mask stage at `(t, e)`. -/
theorem mask_apply (x : FVec Ideal S32768x1024 .f32) (W : FVec Ideal S64x1024 .f32) (b : FVec Ideal S64 .f32)
    (t : Fin 32768) (e : Fin 64) :
    val_main_v13 (F := Ideal) x W b (ix2 t e) = Cert.Gate.above (Cert.Gate.prob x W b t e) := by
  rw [val_main_v13_apply, val_main_v12_apply, val_main_v11_apply, val_main_cst_1_apply, prob_apply]
  rfl

/-- The reference's second result is the mask. -/
theorem mask_eq (x : FVec Ideal S32768x1024 .f32) (W : FVec Ideal S64x1024 .f32) (b : FVec Ideal S64 .f32) :
    val_main_v13 (F := Ideal) x W b = Cert.Gate.mask x W b := by
  funext i
  obtain ⟨t, e, rfl⟩ : ∃ (t : Fin 32768) (e : Fin 64), i = ix2 t e := ⟨i 0, i 1, eq_ix2 i⟩
  rw [mask_apply]
  rfl

/-- The reference's first result is the gated probability. -/
theorem gated_eq (x : FVec Ideal S32768x1024 .f32) (W : FVec Ideal S64x1024 .f32) (b : FVec Ideal S64 .f32) :
    val_main_v14 (F := Ideal) x W b = Cert.Gate.gated x W b := by
  funext i
  obtain ⟨t, e, rfl⟩ : ∃ (t : Fin 32768) (e : Fin 64), i = ix2 t e := ⟨i 0, i 1, eq_ix2 i⟩
  rw [val_main_v14_apply, prob_apply, mask_apply]
  rfl

end Cert.ReferenceIdeal.GateRef

end
-- ==== Proof.lean ====
/-
  The gate kernel against its reference, on the extended reals.

  Both programs compute, for each of 32768 tokens `t` and 64 experts `e`,
      p(t, e) = 1 / (1 + exp (−(∑ₖ W(e, k) · x(t, k) + b e))),
  and return `p · [p > ½]` and `[p > ½]`.  The kernel works tile by tile on the transposed arrays — sixteen blocks of 2048
  tokens, experts along the rows — and its program transposes the two arrays at the end; the reference multiplies `x` by
  the transposed weights, so its products have their factors in the other order.  Commuting each product is the only law
  the comparison uses, and it holds at infinities too, so the inputs' finiteness is never opened.  The logistic function
  of the kernel is, on the extended reals, the very expression `1 / (1 + exp (−z))` the reference spells; the threshold
  word ½ is the same in both; the kernel's mask widens the comparison's bit to a word before converting it, the
  reference converts the bit itself, and both are 0 or 1.

  The three frames: the two kernel programs' are the generated frame certificates; the reference's is its generated run
  with the results dropped.  The idealization rewrote nothing, so `preserves` is trivial.
-/
import proofs.«119890_g22239340659018_cont_8to1_1570_23_alg».proof.Defs
import proofs.«119890_g22239340659018_cont_8to1_1570_23_alg».proof.Proof.Gen.Kernel
import proofs.«119890_g22239340659018_cont_8to1_1570_23_alg».proof.Proof.Gen.Kernel.Skeleton
import proofs.«119890_g22239340659018_cont_8to1_1570_23_alg».proof.Proof.Gen.Kernel.Launch
import proofs.«119890_g22239340659018_cont_8to1_1570_23_alg».proof.Proof.Gen.Kernel.Points
import proofs.«119890_g22239340659018_cont_8to1_1570_23_alg».proof.Proof.Gen.Kernel.Frame
import proofs.«119890_g22239340659018_cont_8to1_1570_23_alg».proof.Proof.Gen.KernelIdeal
import proofs.«119890_g22239340659018_cont_8to1_1570_23_alg».proof.Proof.Gen.KernelIdeal.Skeleton
import proofs.«119890_g22239340659018_cont_8to1_1570_23_alg».proof.Proof.Gen.KernelIdeal.Launch
import proofs.«119890_g22239340659018_cont_8to1_1570_23_alg».proof.Proof.Gen.KernelIdeal.Points
import proofs.«119890_g22239340659018_cont_8to1_1570_23_alg».proof.Proof.Gen.KernelIdeal.Frame
import proofs.«119890_g22239340659018_cont_8to1_1570_23_alg».proof.Proof.Gen.ReferenceIdeal
import proofs.«119890_g22239340659018_cont_8to1_1570_23_alg».proof.Proof.Gen.ReferenceIdeal.Run
import proofs.«119890_g22239340659018_cont_8to1_1570_23_alg».proof.Proof.Gen.ReferenceIdeal.Read
import proofs.«119890_g22239340659018_cont_8to1_1570_23_alg».proof.Proof.Gen.Pre_finite_inputs
import proofs.«119890_g22239340659018_cont_8to1_1570_23_alg».proof.Proof.GateRun
import proofs.«119890_g22239340659018_cont_8to1_1570_23_alg».proof.Proof.GateReference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both programs end with the gate function of the (agreeing) argument arrays in their two results. -/
theorem algebraic : Cert.algebraic_KernelIdeal_ReferenceIdeal := by
  intro m ρ m' ρ' _ hagree
  refine ⟨_, _, Cert.KernelIdeal.GateRun.run m ρ, ?_⟩
  refine (θ_run Cert.ReferenceIdeal.defs _ _).mono
    (fun _ h c => ⟨?_, ?_, (h c).2.2.1, (h c).2.2.2.1, (h c).2.2.2.2⟩)
    (Cert.ReferenceIdeal.Value.run (F := Ideal) m' ρ')
  · rw [(h c).1, Cert.ReferenceIdeal.Read.val_main_v14_eq, Cert.ReferenceIdeal.GateRef.gated_eq,
      (hagree c).1, (hagree c).2.1, (hagree c).2.2]
  · rw [(h c).2.1, Cert.ReferenceIdeal.Read.val_main_v13_eq, Cert.ReferenceIdeal.GateRef.mask_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
